-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S64x20 : Shape := ⟨2, ![64, 20]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S64x20 : S_.BroadcastsInDim S64x20 (![] : Fin 0 → Fin S64x20.rank)
  reducesTo_S64x20_S_d0_1 : S64x20.ReducesTo [0, 1] S_

variable [Facts]

def fn {F : FTy → Type} [FloatOps F] (main_arg0 : FVec F S16x64x256x256 .f32) (main_arg1 : FVec F S64x20 .f32) (main_arg2 : FVec F S64x20 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S64x20 .f32 := Host.absf main_arg1
  let main_cst_0 : FVec F S_ .f32 := constant S_ .f32 0x7F800000#32
  let main_v5 : FVec F S64x20 .f32 := broadcastInDim S64x20 ![] bcast_S_S64x20 main_cst_0
  let main_v6 : IVec S64x20 1 := cmpf .olt main_v4 main_v5
  let main_c_1 : IVec S_ 1 := constantI S_ 1 1#1
  let main_v7 : IVec S_ 1 := (fun x v => Host.reduce IntOp.andi x v reducesTo_S64x20_S_d0_1 h_S_) main_v6 main_c_1
  let main_v8 : IVec S_ 1 := andi main_v3 main_v7
  let main_v9 : FVec F S64x20 .f32 := Host.absf main_arg2
  let main_cst_2 : FVec F S_ .f32 := constant S_ .f32 0x7F800000#32
  let main_v10 : FVec F S64x20 .f32 := broadcastInDim S64x20 ![] bcast_S_S64x20 main_cst_2
  let main_v11 : IVec S64x20 1 := cmpf .olt main_v9 main_v10
  let main_c_3 : IVec S_ 1 := constantI S_ 1 1#1
  let main_v12 : IVec S_ 1 := (fun x v => Host.reduce IntOp.andi x v reducesTo_S64x20_S_d0_1 h_S_) main_v11 main_c_3
  let main_v13 : IVec S_ 1 := andi main_v8 main_v12
  main_v13
-- ==== Kernel.lean ====
abbrev S16x64x256x256 : Shape := ⟨4, ![16, 64, 256, 256]⟩
abbrev S64x20 : Shape := ⟨2, ![64, 20]⟩
abbrev S1x8x256x256 : Shape := ⟨4, ![1, 8, 256, 256]⟩
abbrev S8x20 : Shape := ⟨2, ![8, 20]⟩
abbrev S8x256x256 : Shape := ⟨3, ![8, 256, 256]⟩
abbrev S8x1 : Shape := ⟨2, ![8, 1]⟩
abbrev S8 : Shape := ⟨1, ![8]⟩
abbrev S8x1x1 : Shape := ⟨3, ![8, 1, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x64x256x256, .f32⟩
  | .hbm, ⟨1, _⟩ => ⟨S64x20, .f32⟩
  | .hbm, ⟨2, _⟩ => ⟨S64x20, .f32⟩
  | .hbm, ⟨3, _⟩ => ⟨S16x64x256x256, .f32⟩
  | .local _ .vmem, ⟨0, _⟩ => ⟨S1x8x256x256, .f32⟩
  | .local _ .vmem, ⟨1, _⟩ => ⟨S1x8x256x256, .f32⟩
  | .local _ .vmem, ⟨2, _⟩ => ⟨S8x20, .f32⟩
  | .local _ .vmem, ⟨3, _⟩ => ⟨S8x20, .f32⟩
  | .local _ .vmem, ⟨4, _⟩ => ⟨S8x20, .f32⟩
  | .local _ .vmem, ⟨5, _⟩ => ⟨S8x20, .f32⟩
  | .local _ .vmem, ⟨6, _⟩ => ⟨S1x8x256x256, .f32⟩
  | .local _ .vmem, ⟨7, _⟩ => ⟨S1x8x256x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x8x256x256_S1x8x256x256_0_0_0_0 : ∀ a, (![0, 0, 0, 0] : Fin 4 → Nat) a + S1x8x256x256.size a ≤ S1x8x256x256.size a
  h_S1x8x256x256 : 0 < S1x8x256x256.numel
  shapeCasts_S1x8x256x256_S8x256x256 : S1x8x256x256.ShapeCasts S8x256x256
  inb_S8x20_S8x1_0_0 : ∀ a, (![0, 0] : Fin 2 → Nat) a + S8x1.size a ≤ S8x20.size a
  h_S8x1 : 0 < S8x1.numel
  shapeCasts_S8x1_S8 : S8x1.ShapeCasts S8
  shapeCasts_S8_S8x1x1 : S8.ShapeCasts S8x1x1
  shapeCasts_S8x1x1_S8x1x1 : S8x1x1.ShapeCasts S8x1x1
  broadcasts_S8x1x1_S8x256x256 : S8x1x1.Broadcasts S8x256x256
  inb_S8x20_S8x1_0_1 : ∀ a, (![0, 1] : Fin 2 → Nat) a + S8x1.size a ≤ S8x20.size a
  inb_S8x20_S8x1_0_2 : ∀ a, (![0, 2] : Fin 2 → Nat) a + S8x1.size a ≤ S8x20.size a
  inb_S8x20_S8x1_0_3 : ∀ a, (![0, 3] : Fin 2 → Nat) a + S8x1.size a ≤ S8x20.size a
  inb_S8x20_S8x1_0_4 : ∀ a, (![0, 4] : Fin 2 → Nat) a + S8x1.size a ≤ S8x20.size a
  inb_S8x20_S8x1_0_5 : ∀ a, (![0, 5] : Fin 2 → Nat) a + S8x1.size a ≤ S8x20.size a
  inb_S8x20_S8x1_0_6 : ∀ a, (![0, 6] : Fin 2 → Nat) a + S8x1.size a ≤ S8x20.size a
  inb_S8x20_S8x1_0_7 : ∀ a, (![0, 7] : Fin 2 → Nat) a + S8x1.size a ≤ S8x20.size a
  inb_S8x20_S8x1_0_8 : ∀ a, (![0, 8] : Fin 2 → Nat) a + S8x1.size a ≤ S8x20.size a
  inb_S8x20_S8x1_0_9 : ∀ a, (![0, 9] : Fin 2 → Nat) a + S8x1.size a ≤ S8x20.size a
  inb_S8x20_S8x1_0_10 : ∀ a, (![0, 10] : Fin 2 → Nat) a + S8x1.size a ≤ S8x20.size a
  inb_S8x20_S8x1_0_11 : ∀ a, (![0, 11] : Fin 2 → Nat) a + S8x1.size a ≤ S8x20.size a
  inb_S8x20_S8x1_0_12 : ∀ a, (![0, 12] : Fin 2 → Nat) a + S8x1.size a ≤ S8x20.size a
  inb_S8x20_S8x1_0_13 : ∀ a, (![0, 13] : Fin 2 → Nat) a + S8x1.size a ≤ S8x20.size a
  inb_S8x20_S8x1_0_14 : ∀ a, (![0, 14] : Fin 2 → Nat) a + S8x1.size a ≤ S8x20.size a
  inb_S8x20_S8x1_0_15 : ∀ a, (![0, 15] : Fin 2 → Nat) a + S8x1.size a ≤ S8x20.size a
  inb_S8x20_S8x1_0_16 : ∀ a, (![0, 16] : Fin 2 → Nat) a + S8x1.size a ≤ S8x20.size a
  inb_S8x20_S8x1_0_17 : ∀ a, (![0, 17] : Fin 2 → Nat) a + S8x1.size a ≤ S8x20.size a
  inb_S8x20_S8x1_0_18 : ∀ a, (![0, 18] : Fin 2 → Nat) a + S8x1.size a ≤ S8x20.size a
  inb_S8x20_S8x1_0_19 : ∀ a, (![0, 19] : Fin 2 → Nat) a + S8x1.size a ≤ S8x20.size a
  shapeCasts_S8x256x256_S1x8x256x256 : S8x256x256.ShapeCasts S1x8x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x256.size a ≤ S16x64x256x256.size a
  hwx0_0 : ∀ i : grid0.Coords, EltTy.bits .f32 = 32 ∨ (Rect.block (s := S16x64x256x256) S1x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x20.size a ≤ S64x20.size a
  hwx0_1 : ∀ i : grid0.Coords, EltTy.bits .f32 = 32 ∨ (Rect.block (s := S64x20) S8x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x20.size a ≤ S64x20.size a
  hwx0_2 : ∀ i : grid0.Coords, EltTy.bits .f32 = 32 ∨ (Rect.block (s := S64x20) S8x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x256x256.size a ≤ S16x64x256x256.size a
  hwx0_3 : ∀ i : grid0.Coords, EltTy.bits .f32 = 32 ∨ (Rect.block (s := S16x64x256x256) S1x8x256x256.size (cc0_transform_3 i) (hinb0_3 i)).WholeWords (EltTy.packing .f32)

variable [Facts₀]

abbrev win0_0 : Pipeline.Window sig grid0 :=
  Pipeline.Window.ofSpec (Memref.whole main_arg0) S1x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x20.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S64x20 : Shape := ⟨2, ![64, 20]⟩
abbrev S_ : Shape := ⟨0, ![]⟩
abbrev S64 : Shape := ⟨1, ![64]⟩
abbrev S1x64x1x1 : Shape := ⟨4, ![1, 64, 1, 1]⟩
abbrev S16x64x256x256x1 : Shape := ⟨5, ![16, 64, 256, 256, 1]⟩
abbrev S16x64x256x256x2 : Shape := ⟨5, ![16, 64, 256, 256, 2]⟩

abbrev nBuf : Space → Nat
  | .hbm => 70
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S64x20, .f32⟩
  | .hbm, ⟨2, _⟩ => ⟨S64x20, .f32⟩
  | .hbm, ⟨3, _⟩ => ⟨S_, .f32⟩
  | .hbm, ⟨4, _⟩ => ⟨S16x64x256x256, .f32⟩
  | .hbm, ⟨5, _⟩ => ⟨S16x64x256x256, .f32⟩
  | .hbm, ⟨6, _⟩ => ⟨S16x64x256x256, .f32⟩
  | .hbm, ⟨7, _⟩ => ⟨S16x64x256x256, .i32⟩
  | .hbm, ⟨8, _⟩ => ⟨S_, .i32⟩
  | .hbm, ⟨9, _⟩ => ⟨S16x64x256x256, .i32⟩
  | .hbm, ⟨10, _⟩ => ⟨S16x64x256x256, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S16x64x256x256, .i32⟩
  | .hbm, ⟨15, _⟩ => ⟨S16x64x256x256, .i32⟩
  | .hbm, ⟨16, _⟩ => ⟨S_, .i32⟩
  | .hbm, ⟨17, _⟩ => ⟨S16x64x256x256, .i32⟩
  | .hbm, ⟨18, _⟩ => ⟨S16x64x256x256, .i32⟩
  | .hbm, ⟨19, _⟩ => ⟨S64, .i32⟩
  | .hbm, ⟨20, _⟩ => ⟨S1x64x1x1, .i32⟩
  | .hbm, ⟨21, _⟩ => ⟨S_, .i32⟩
  | .hbm, ⟨22, _⟩ => ⟨S1x64x1x1, .i32⟩
  | .hbm, ⟨23, _⟩ => ⟨S1x64x1x1, .i1⟩
  | .hbm, ⟨24, _⟩ => ⟨S_, .i32⟩
  | .hbm, ⟨25, _⟩ => ⟨S1x64x1x1, .i32⟩
  | .hbm, ⟨26, _⟩ => ⟨S1x64x1x1, .i32⟩
  | .hbm, ⟨27, _⟩ => ⟨S1x64x1x1, .i32⟩
  | .hbm, ⟨28, _⟩ => ⟨S_, .i32⟩
  | .hbm, ⟨29, _⟩ => ⟨S16x64x256x256, .i32⟩
  | .hbm, ⟨30, _⟩ => ⟨S16x64x256x256, .i1⟩
  | .hbm, ⟨31, _⟩ => ⟨S_, .i32⟩
  | .hbm, ⟨32, _⟩ => ⟨S16x64x256x256, .i32⟩
  | .hbm, ⟨33, _⟩ => ⟨S16x64x256x256, .i32⟩
  | .hbm, ⟨34, _⟩ => ⟨S16x64x256x256, .i32⟩
  | .hbm, ⟨35, _⟩ => ⟨S16x64x256x256, .i32⟩
  | .hbm, ⟨36, _⟩ => ⟨S16x64x256x256x1, .i32⟩
  | .hbm, ⟨37, _⟩ => ⟨S16x64x256x256x1, .i32⟩
  | .hbm, ⟨38, _⟩ => ⟨S16x64x256x256x2, .i32⟩
  | .hbm, ⟨39, _⟩ => ⟨S16x64x256x256, .f32⟩
  | .hbm, ⟨40, _⟩ => ⟨S_, .i32⟩
  | .hbm, ⟨41, _⟩ => ⟨S1x64x1x1, .i32⟩
  | .hbm, ⟨42, _⟩ => ⟨S1x64x1x1, .i1⟩
  | .hbm, ⟨43, _⟩ => ⟨S_, .i32⟩
  | .hbm, ⟨44, _⟩ => ⟨S1x64x1x1, .i32⟩
  | .hbm, ⟨45, _⟩ => ⟨S1x64x1x1, .i32⟩
  | .hbm, ⟨46, _⟩ => ⟨S1x64x1x1, .i32⟩
  | .hbm, ⟨47, _⟩ => ⟨S_, .i32⟩
  | .hbm, ⟨48, _⟩ => ⟨S16x64x256x256, .i32⟩
  | .hbm, ⟨49, _⟩ => ⟨S16x64x256x256, .i1⟩
  | .hbm, ⟨50, _⟩ => ⟨S_, .i32⟩
  | .hbm, ⟨51, _⟩ => ⟨S16x64x256x256, .i32⟩
  | .hbm, ⟨52, _⟩ => ⟨S16x64x256x256, .i32⟩
  | .hbm, ⟨53, _⟩ => ⟨S16x64x256x256, .i32⟩
  | .hbm, ⟨54, _⟩ => ⟨S16x64x256x256, .i32⟩
  | .hbm, ⟨55, _⟩ => ⟨S16x64x256x256x1, .i32⟩
  | .hbm, ⟨56, _⟩ => ⟨S16x64x256x256x1, .i32⟩
  | .hbm, ⟨57, _⟩ => ⟨S16x64x256x256x2, .i32⟩
  | .hbm, ⟨58, _⟩ => ⟨S16x64x256x256, .f32⟩
  | .hbm, ⟨59, _⟩ => ⟨S16x64x256x256, .f32⟩
  | .hbm, ⟨60, _⟩ => ⟨S16x64x256x256, .f32⟩
  | .hbm, ⟨61, _⟩ => ⟨S16x64x256x256, .f32⟩
  | .hbm, ⟨62, _⟩ => ⟨S16x64x256x256, .f32⟩
  | .hbm, ⟨63, _⟩ => ⟨S_, .f32⟩
  | .hbm, ⟨64, _⟩ => ⟨S16x64x256x256, .f32⟩
  | .hbm, ⟨65, _⟩ => ⟨S16x64x256x256, .f32⟩
  | .hbm, ⟨66, _⟩ => ⟨S_, .f32⟩
  | .hbm, ⟨67, _⟩ => ⟨S16x64x256x256, .f32⟩
  | .hbm, ⟨68, _⟩ => ⟨S16x64x256x256, .f32⟩
  | .hbm, ⟨69, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_4 : Ref sig .tc := ⟨.hbm, 28, rfl⟩
abbrev main_v14 : Ref sig .tc := ⟨.hbm, 29, rfl⟩
abbrev main_v15 : Ref sig .tc := ⟨.hbm, 30, rfl⟩
abbrev main_c_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_c_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]

class Facts₀ : Prop where
  bcast_S_S16x64x256x256 : S_.BroadcastsInDim S16x64x256x256 (![] : Fin 0 → Fin S16x64x256x256.rank)
  bcast_S64_S1x64x1x1_1 : S64.BroadcastsInDim S1x64x1x1 (![1] : Fin 1 → Fin S1x64x1x1.rank)
  bcast_S_S1x64x1x1 : S_.BroadcastsInDim S1x64x1x1 (![] : Fin 0 → Fin S1x64x1x1.rank)
  bcast_S1x64x1x1_S16x64x256x256_0_1_2_3 : S1x64x1x1.BroadcastsInDim S16x64x256x256 (![0, 1, 2, 3] : Fin 4 → Fin S16x64x256x256.rank)
  bcast_S16x64x256x256_S16x64x256x256x1_0_1_2_3 : S16x64x256x256.BroadcastsInDim S16x64x256x256x1 (![0, 1, 2, 3] : Fin 4 → Fin S16x64x256x256x1.rank)
  concatenates_S16x64x256x256x1_S16x64x256x256x1_S16x64x256x256x2_d4 : Shape.Concatenates [S16x64x256x256x1, S16x64x256x256x1] S16x64x256x256x2 4
  gather_S64x20_S16x64x256x256x2_S16x64x256x256_n_01_n_n_01_4_11_wf : GatherDims.WF S64x20 S16x64x256x256x2 S16x64x256x256 [] [0, 1] [] [0, 1] [] 4 ![1, 1]

variable [Facts₀]

def gather_S64x20_S16x64x256x256x2_S16x64x256x256_n_01_n_n_01_4_11 : GatherDims S64x20 S16x64x256x256x2 S16x64x256x256 where
  offsetDims := []
  collapsedSliceDims := [0, 1]
  operandBatchingDims := []
  startIndicesBatchingDims := []
  startIndexMap := [0, 1]
  indexVectorDim := 4
  sliceSizes := ![1, 1]
  wf := gather_S64x20_S16x64x256x256x2_S16x64x256x256_n_01_n_n_01_4_11_wf

class Facts : Prop extends Facts₀ where

variable [Facts]
-- ==== Proof.Bins.lean ====
/-
  Binning. A value x falls into the bin ⌊10·x⌋ + 10, clamped into 0 … 19; the result element is
  (w[c, bin] · x + b[c, bin]) · σ(x), σ the logistic function, c the channel of the element.
  This file states the bin as a 32-bit word, shows that the clamp keeps it in range, that a chain of twenty
  compare-and-select steps over the bin reads off the entry the bin names, and states the whole array of results as
  one function of the three argument arrays.
-/
import Idealize.ShloMosaic.PureOps.Ideal
import Idealize.ShloMosaic.Lib.ValueIdx

noncomputable section

open Idealize.ShloMosaic Idealize.ShloMosaic.ValueIdx

namespace Cert.Binned

/-! ## The clamp -/

/-- A word clamped from below by 0 and from above by 19, both in the signed order, is one of 0 … 19. -/
theorem clamp_lt (z : BitVec 32) : (IntOp.minsi 19#32 (IntOp.maxsi 0#32 z)).toNat < 20 := by
  unfold IntOp.minsi IntOp.maxsi
  have h19 : (19#32 : BitVec 32).toInt = 19 := by decide
  have h0 : (0#32 : BitVec 32).toInt = 0 := by decide
  by_cases hz : z.slt 0#32
  · rw [if_pos hz]
    by_cases h : (19#32 : BitVec 32).slt 0#32
    · rw [if_pos h]; decide
    · rw [if_neg h]; decide
  · rw [if_neg hz]
    by_cases h : (19#32 : BitVec 32).slt z
    · rw [if_pos h]; decide
    · rw [if_neg h]
      have hz' : ¬ z.toInt < 0 := by simpa [BitVec.slt, h0] using hz
      have h' : ¬ 19 < z.toInt := by simpa [BitVec.slt, h19] using h
      have hc := BitVec.toInt_eq_toNat_cond z
      have hlt := z.isLt
      split at hc <;> omega

/-- A word among 0 … 19 is not negative in the signed order … -/
theorem not_slt_zero {v : BitVec 32} (h : v.toNat < 20) : IntOp.cmpi .slt v 0#32 = 0#1 := by
  have hc := BitVec.toInt_eq_toNat_cond v
  have : ¬ v.toInt < 0 := by split at hc <;> omega
  simp [IntOp.cmpi, BitVec.slt, this]

/-- … and read as a signed integer it is the same natural number. -/
theorem toInt_toNat {v : BitVec 32} (h : v.toNat < 20) : v.toInt.toNat = v.toNat := by
  have hc := BitVec.toInt_eq_toNat_cond v
  split at hc <;> omega

/-! ## The bin -/

/-- The bin of `x` as a word: ⌊10·x⌋ converted to a 32-bit integer, plus 10, clamped into 0 … 19. -/
def binWord (x : Ideal .f32) : BitVec 32 :=
  IntOp.minsi 19#32 (IntOp.maxsi 0#32 (IntOp.addi (FloatOps.fptosi 32 (FloatOps.floor (FloatOps.mulf x (Scalar.ofBits .f32 0x41200000#32)))) 10#32))

theorem binWord_lt (x : Ideal .f32) : (binWord x).toNat < 20 := clamp_lt _

/-- The bin of `x` as a number below 20. -/
def bin (x : Ideal .f32) : Fin 20 := ⟨(binWord x).toNat, binWord_lt x⟩

/-! ## Twenty compare-and-select steps read the entry the word names -/

/-- Starting from `d`, for k = 0, 1, …, 19 in turn: if the word is k take `f k`, else keep what was there. -/
def pick {α : Type} (v : BitVec 32) (f : Fin 20 → α) (d : α) : α :=
  Scalar.select (IntOp.cmpi .eq v 19#32) (f 19) (Scalar.select (IntOp.cmpi .eq v 18#32) (f 18) (Scalar.select (IntOp.cmpi .eq v 17#32) (f 17) (Scalar.select (IntOp.cmpi .eq v 16#32) (f 16) (Scalar.select (IntOp.cmpi .eq v 15#32) (f 15) (Scalar.select (IntOp.cmpi .eq v 14#32) (f 14) (Scalar.select (IntOp.cmpi .eq v 13#32) (f 13) (Scalar.select (IntOp.cmpi .eq v 12#32) (f 12) (Scalar.select (IntOp.cmpi .eq v 11#32) (f 11) (Scalar.select (IntOp.cmpi .eq v 10#32) (f 10) (Scalar.select (IntOp.cmpi .eq v 9#32) (f 9) (Scalar.select (IntOp.cmpi .eq v 8#32) (f 8) (Scalar.select (IntOp.cmpi .eq v 7#32) (f 7) (Scalar.select (IntOp.cmpi .eq v 6#32) (f 6) (Scalar.select (IntOp.cmpi .eq v 5#32) (f 5) (Scalar.select (IntOp.cmpi .eq v 4#32) (f 4) (Scalar.select (IntOp.cmpi .eq v 3#32) (f 3) (Scalar.select (IntOp.cmpi .eq v 2#32) (f 2) (Scalar.select (IntOp.cmpi .eq v 1#32) (f 1) (Scalar.select (IntOp.cmpi .eq v 0#32) (f 0) (d))))))))))))))))))))

/-- For a word among 0 … 19 exactly one step fires, and the chain is the entry the word names. -/
theorem pick_eq {α : Type} (v : BitVec 32) (f : Fin 20 → α) (d : α) (h : v.toNat < 20) : pick v f d = f ⟨v.toNat, h⟩ := by
  obtain ⟨n, hn⟩ : ∃ n : Fin 20, v = BitVec.ofNat 32 n.val := ⟨⟨v.toNat, h⟩, by simp⟩
  subst hn
  fin_cases n <;> rfl

/-! ## One element, and the whole array -/

/-- One result element from the value `x` and the channel's twenty weights and twenty biases:
    (w[bin x] · x + b[bin x]) · σ(x). -/
def cell (x : Ideal .f32) (wr br : Fin 20 → Ideal .f32) : Ideal .f32 :=
  FloatOps.mulf (FloatOps.addf (FloatOps.mulf (wr (bin x)) x) (br (bin x))) (FloatOps.logistic x)

/-- The same element with each table read through the select chain, as a vector unit computes it. -/
theorem cell_of_pick (x : Ideal .f32) (wr br : Fin 20 → Ideal .f32) (d e : Ideal .f32) :
    FloatOps.mulf (FloatOps.addf (FloatOps.mulf (pick (binWord x) wr d) x) (pick (binWord x) br e)) (FloatOps.logistic x)
      = cell x wr br := by
  rw [pick_eq _ _ _ (binWord_lt x), pick_eq _ _ _ (binWord_lt x)]; rfl

/-- The array of results: element (n, c, h, w) is the cell of x[n, c, h, w] over rows c of the two tables. -/
def result (x : (⟨4, ![16, 64, 256, 256]⟩ : Shape).Idx → Ideal .f32) (w b : (⟨2, ![64, 20]⟩ : Shape).Idx → Ideal .f32) :
    (⟨4, ![16, 64, 256, 256]⟩ : Shape).Idx → Ideal .f32 :=
  fun i => cell (x i) (fun k => w (ix2 (⟨(i 1).val, (i 1).isLt⟩ : Fin 64) k)) (fun k => b (ix2 (⟨(i 1).val, (i 1).isLt⟩ : Fin 64) k))

end Cert.Binned

end
-- ==== Proof.KernelCell.lean ====
/-
  One element of what the kernel body leaves in its output block.

  The body loads the block x[1, 8, 256, 256] of the input and, for k = 0 … 19, column k of the two table blocks
  w, b : [8, 20]; it computes the bin of every element, runs the twenty compare-and-select steps once over the weight
  columns and once over the bias columns (each column re-laid [8, 1] → [8] → [8, 1, 1] and spread over the [8, 256, 256]
  block, so that element (c, h, w) sees row c of the column), and stores (w_sel · x + b_sel) · σ(x).
  Read at element (0, c, h, w) this is the cell of x[0, c, h, w] over rows c of the two table blocks.
-/
import proofs.«156623_j68530498175130_1_alg».proof.Proof.Gen.KernelIdeal.Frame
import proofs.«156623_j68530498175130_1_alg».proof.Proof.Bins
import Idealize.ShloMosaic.Lib.Pipeline.Value
import Idealize.ShloMosaic.Lib.ValueIdx

noncomputable section

open Idealize.ShloMosaic Idealize.ShloMosaic.TcCoe Idealize.ShloMosaic.ValueIdx

namespace Cert.KernelIdeal.Cell

open Cert.KernelIdeal Cert.KernelIdeal.Gen

theorem hz4 : (![0, 0, 0, 0] : Fin 4 → Nat) = fun _ => 0 := funext fun a => by fin_cases a <;> rfl

/-! ## The re-layings read at an element -/

section Layout
variable {α : Type} {Val : EltTy → Type} {e : EltTy}

/-- Adding the leading unit axis: element (0, c, h, w) of the four-axis block is element (c, h, w). -/
theorem lead_apply (V : S8x256x256.Idx → α) (hc : S8x256x256.ShapeCasts S1x8x256x256) (c : Fin 8) (h w : Fin 256) :
    shapeCast S1x8x256x256 V hc (ix4 (0 : Fin 1) c h w) = V (ix3 c h w) :=
  shapeCast_apply V hc (ix4 (0 : Fin 1) c h w) (ix3 c h w) (by
    rw [Shape.rowMajor_val_three, Shape.rowMajor_val_four]
    show (c.val * 256 + h.val) * 256 + w.val = ((0 * 8 + c.val) * 256 + h.val) * 256 + w.val
    omega)

/-- Dropping it: element (c, h, w) of the three-axis block is element (0, c, h, w). -/
theorem drop_apply (P : S1x8x256x256.Idx → α) (hc : S1x8x256x256.ShapeCasts S8x256x256) (c : Fin 8) (h w : Fin 256) :
    shapeCast S8x256x256 P hc (ix3 c h w) = P (ix4 (0 : Fin 1) c h w) :=
  shapeCast_apply P hc (ix3 c h w) (ix4 (0 : Fin 1) c h w) (by
    rw [Shape.rowMajor_val_three, Shape.rowMajor_val_four]
    show ((0 * 8 + c.val) * 256 + h.val) * 256 + w.val = (c.val * 256 + h.val) * 256 + w.val
    omega)

/-- A column [8, 1] re-laid as [8], then [8, 1, 1], then spread over [8, 256, 256]: element (c, h, w) is row c of the
    column. -/
theorem column_apply (P : S8x1.Idx → α) (h1 : S8x1.ShapeCasts S8) (h2 : S8.ShapeCasts S8x1x1) (h3 : S8x1x1.ShapeCasts S8x1x1)
    (h4 : S8x1x1.Broadcasts S8x256x256) (c : Fin 8) (h w : Fin 256) :
    broadcastTo S8x256x256 (shapeCast S8x1x1 (shapeCast S8x1x1 (shapeCast S8 P h1) h2) h3) h4 (ix3 c h w)
      = P (ix2 c (0 : Fin 1)) := by
  rw [shapeCast_self]
  rw [broadcastTo_apply _ h4 (ix3 c h w) (ix3 c (0 : Fin 1) (0 : Fin 1)) (fun a => by
    match a with
    | ⟨0, _⟩ => show c.val = if (8 : Nat) = 1 then 0 else c.val; rw [if_neg (by decide)]
    | ⟨1, _⟩ => show 0 = if (1 : Nat) = 1 then 0 else h.val; rw [if_pos rfl]
    | ⟨2, _⟩ => show 0 = if (1 : Nat) = 1 then 0 else w.val; rw [if_pos rfl])]
  rw [shapeCast_apply _ h2 (ix3 c (0 : Fin 1) (0 : Fin 1)) (ix1 c) (by
    rw [Shape.rowMajor_val_three, Shape.rowMajor_val_one]
    show c.val = (c.val * 1 + 0) * 1 + 0
    omega)]
  exact shapeCast_apply P h1 (ix1 c) (ix2 c (0 : Fin 1)) (by
    rw [Shape.rowMajor_val_one, Shape.rowMajor_val_two]
    show c.val * 1 + 0 = c.val
    omega)

/-- Column k of a table block [8, 20], loaded as [8, 1]: row c of the load sits at entry (c, k) of the block. -/
theorem column_index (k : Nat) (inb : ∀ a, (![0, k] : Fin 2 → Nat) a + S8x1.size a ≤ S8x20.size a) (c : Fin 8) :
    (Rect.unit (s := S8x20) ![0, k] S8x1.size inb).idx (ix2 c (0 : Fin 1))
      = ix2 c (⟨k, by have := inb 1; simpa using this⟩ : Fin 20) := by
  funext a
  apply Fin.ext
  match a with
  | ⟨0, _⟩ => show 0 + 1 * c.val = c.val; omega
  | ⟨1, _⟩ => show k + 1 * 0 = k; omega

end Layout

/-! ## The stored block at an element -/

set_option maxHeartbeats 4000000 in
set_option maxRecDepth 16384 in
/-- Element (0, c, h, w) of what the body stores is the cell of x[0, c, h, w] over rows c of the two table blocks. -/
theorem out_apply (x0 : Vec Ideal S1x8x256x256 .f32) (x1 x2 : Vec Ideal S8x20 .f32) (c : Fin 8) (h w : Fin 256) :
    out0_3 (F := Ideal) x0 x1 x2 (ix4 (0 : Fin 1) c h w)
      = Cert.Binned.cell (x0 (ix4 (0 : Fin 1) c h w)) (fun k => x1 (ix2 c k)) (fun k => x2 (ix2 c k)) := by
  unfold out0_3
  rw [View.canon_unit_zero hz4]
  unfold k0_pay1
  rw [lead_apply]
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40]
  simp only [mulf, addf, logistic, select, cmpi, minsi, maxsi, addi, fptosi, floor, broadcast,
    column_apply, drop_apply, View.ld_unit_zero (S := S1x8x256x256) hz4]
  simp only [r0_1, r0_2, r0_3, r0_4, r0_5, r0_6, r0_7, r0_8, r0_9, r0_10, r0_11, r0_12, r0_13, r0_14, r0_15, r0_16, r0_17, r0_18, r0_19, r0_20, View.ld]
  rw [column_index 0 inb_S8x20_S8x1_0_0 c, column_index 1 inb_S8x20_S8x1_0_1 c, column_index 2 inb_S8x20_S8x1_0_2 c,
    column_index 3 inb_S8x20_S8x1_0_3 c, column_index 4 inb_S8x20_S8x1_0_4 c, column_index 5 inb_S8x20_S8x1_0_5 c,
    column_index 6 inb_S8x20_S8x1_0_6 c, column_index 7 inb_S8x20_S8x1_0_7 c, column_index 8 inb_S8x20_S8x1_0_8 c,
    column_index 9 inb_S8x20_S8x1_0_9 c, column_index 10 inb_S8x20_S8x1_0_10 c, column_index 11 inb_S8x20_S8x1_0_11 c,
    column_index 12 inb_S8x20_S8x1_0_12 c, column_index 13 inb_S8x20_S8x1_0_13 c, column_index 14 inb_S8x20_S8x1_0_14 c,
    column_index 15 inb_S8x20_S8x1_0_15 c, column_index 16 inb_S8x20_S8x1_0_16 c, column_index 17 inb_S8x20_S8x1_0_17 c,
    column_index 18 inb_S8x20_S8x1_0_18 c, column_index 19 inb_S8x20_S8x1_0_19 c]
  exact Cert.Binned.cell_of_pick (x0 (ix4 (0 : Fin 1) c h w)) (fun k => x1 (ix2 c k)) (fun k => x2 (ix2 c k)) _ _

end Cert.KernelIdeal.Cell

end
-- ==== Proof.KernelValue.lean ====
/-
  The kernel's result array.

  The grid has one point per (image n, channel group g): it loads block (n, g) of x — channels 8g … 8g + 7 —, rows
  8g … 8g + 7 of the two tables, and writes block (n, g) of the result. Every element of a written block is the cell of
  the element of x under it over the table rows of its channel, so each written block is that block of ONE array,
  `Cert.Binned.result` of the three arguments; the 16 × 8 blocks tile the result, so after the run the result array is
  that array.
-/
import proofs.«156623_j68530498175130_1_alg».proof.Proof.KernelCell
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The result array as one function of the three arguments as the region finds them. -/
abbrev whole (c : Dev nD) : S16x64x256x256.Idx → Elt Ideal .f32 :=
  Cert.Binned.result (V m c main_arg0) (V m c main_arg1) (V m c main_arg2)

/-- Where the blocks sit, decided once over the 128 grid points: the input block and the output block of a point
    have the same block coordinates (image, channel group, 0, 0), and both table blocks start at the row block of the
    same channel group. -/
theorem block_coords : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_3.index t (2 : Fin 4) = 0 ∧ win0_3.index t (3 : Fin 4) = 0
    ∧ win0_1.index t (0 : Fin 2) = win0_3.index t (1 : Fin 4) ∧ win0_1.index t (1 : Fin 2) = 0
    ∧ win0_2.index t (0 : Fin 2) = win0_3.index t (1 : Fin 4) ∧ win0_2.index t (1 : Fin 2) = 0
    ∧ win0_3.index t (0 : Fin 4) < 16 ∧ win0_3.index t (1 : Fin 4) < 8 :=
  (by decide +kernel : ∀ t : Fin grid0.N, _)

/-- Every (image, channel group) is some point's output block. -/
theorem block_onto : ∀ (q0 : Fin 16) (q1 : Fin 8), ∃ t : Fin cfg0.N, win0_3.index t = ![q0.val, q1.val, 0, 0] :=
  (by decide +kernel : ∀ (q0 : Fin 16) (q1 : Fin 8), ∃ t : Fin grid0.N, win0_3.index t = ![q0.val, q1.val, 0, 0])

/-- WHAT POINT `t` WRITES BACK is block `t` of `whole`. -/
theorem flushed_eq (c : Dev nD) (t : Fin cfg0.N) :
    (dats m 0 c).flushed 3 t = ((cfg0.win 3).blk t).view.read (Elt Ideal) (whole m c) := by
  show (cfg0.win 3).cut (grid0.coords t) ((dats m 0 c).after 3 t) = _
  rw [after0_3]
  obtain ⟨f00, f01, f02, f03, f32, f33, f10, f11, f20, f21, b0, b1⟩ := block_coords t
  funext j
  obtain ⟨ch, h, w, rfl⟩ : ∃ (ch : Fin 8) (h w : Fin 256), j = ix4 (0 : Fin 1) ch h w :=
    ⟨j 1, j 2, j 3, by
      funext a
      match a with
      | ⟨0, _⟩ => exact Fin.ext (by have h0 : (j 0).val < 1 := (j 0).isLt; show (j 0).val = 0; omega)
      | ⟨1, _⟩ => rfl
      | ⟨2, _⟩ => rfl
      | ⟨3, _⟩ => rfl⟩
  show out0_3 (iblk m c 0 t) (iblk m c 1 t) (iblk m c 2 t) (ix4 (0 : Fin 1) ch h w)
    = Cert.Binned.result (V m c main_arg0) (V m c main_arg1) (V m c main_arg2) (((cfg0.win 3).blk t).view.emb (ix4 (0 : Fin 1) ch h w))
  refine (Cert.KernelIdeal.Cell.out_apply (iblk m c 0 t) (iblk m c 1 t) (iblk m c 2 t) ch h w).trans ?_
  unfold Cert.Binned.result
  have e0 : iblk m c 0 t (ix4 (0 : Fin 1) ch h w) = V m c main_arg0 (((cfg0.win 3).blk t).view.emb (ix4 (0 : Fin 1) ch h w)) := by
    show V m c main_arg0 (((cfg0.win 0).blk t).view.emb (ix4 (0 : Fin 1) ch h w)) = _
    refine congrArg (V m c main_arg0) (funext fun a => Fin.ext ?_)
    match a with
    | ⟨0, _⟩ => show win0_0.index t (0 : Fin 4) * 1 + 1 * 0 = win0_3.index t (0 : Fin 4) * 1 + 1 * 0; omega
    | ⟨1, _⟩ => show win0_0.index t (1 : Fin 4) * 8 + 1 * ch.val = win0_3.index t (1 : Fin 4) * 8 + 1 * ch.val; omega
    | ⟨2, _⟩ => show win0_0.index t (2 : Fin 4) * 256 + 1 * h.val = win0_3.index t (2 : Fin 4) * 256 + 1 * h.val; omega
    | ⟨3, _⟩ => show win0_0.index t (3 : Fin 4) * 256 + 1 * w.val = win0_3.index t (3 : Fin 4) * 256 + 1 * w.val; omega
  have e1 : (fun k : Fin 20 => iblk m c 1 t (ix2 ch k))
      = fun k : Fin 20 => V m c main_arg1 (ix2 (⟨((((cfg0.win 3).blk t).view.emb (ix4 (0 : Fin 1) ch h w)) 1).val,
          ((((cfg0.win 3).blk t).view.emb (ix4 (0 : Fin 1) ch h w)) 1).isLt⟩ : Fin 64) k) := by
    funext k
    show V m c main_arg1 (((cfg0.win 1).blk t).view.emb (ix2 ch k)) = _
    refine congrArg (V m c main_arg1) (funext fun a => Fin.ext ?_)
    match a with
    | ⟨0, _⟩ => show win0_1.index t (0 : Fin 2) * 8 + 1 * ch.val = win0_3.index t (1 : Fin 4) * 8 + 1 * ch.val; omega
    | ⟨1, _⟩ => show win0_1.index t (1 : Fin 2) * 20 + 1 * k.val = k.val; omega
  have e2 : (fun k : Fin 20 => iblk m c 2 t (ix2 ch k))
      = fun k : Fin 20 => V m c main_arg2 (ix2 (⟨((((cfg0.win 3).blk t).view.emb (ix4 (0 : Fin 1) ch h w)) 1).val,
          ((((cfg0.win 3).blk t).view.emb (ix4 (0 : Fin 1) ch h w)) 1).isLt⟩ : Fin 64) k) := by
    funext k
    show V m c main_arg2 (((cfg0.win 2).blk t).view.emb (ix2 ch k)) = _
    refine congrArg (V m c main_arg2) (funext fun a => Fin.ext ?_)
    match a with
    | ⟨0, _⟩ => show win0_2.index t (0 : Fin 2) * 8 + 1 * ch.val = win0_3.index t (1 : Fin 4) * 8 + 1 * ch.val; omega
    | ⟨1, _⟩ => show win0_2.index t (1 : Fin 2) * 20 + 1 * k.val = k.val; omega
  exact congr (congr (congrArg Cert.Binned.cell e0) e1) e2

/-- An index of the result array is in point `t`'s block iff each coordinate is in the block's range on its axis. -/
theorem mem_block (t : Fin cfg0.N) (i : S16x64x256x256.Idx) :
    i ∈ ((cfg0.win 3).blk t).view.set ↔ ∀ a : Fin 4, win0_3.index t a * S1x8x256x256.size a ≤ (i a).val
      ∧ (i a).val < win0_3.index t a * S1x8x256x256.size a + S1x8x256x256.size a := by
  show i ∈ ((View.whole main_v0).slice (win0_3.rect t)).set ↔ _
  rw [View.set_slice_whole, Rect.mem_set_unit]
  exact Iff.rfl

/-- The blocks tile the result: element (n, ch, h, w) lies in the block of image n and channel group ch / 8. -/
theorem covered (i : S16x64x256x256.Idx) :
    ∃ t : Fin cfg0.N, (cfg0.win 3).flush t = true ∧ i ∈ ((cfg0.win 3).blk t).view.set := by
  have hi0 : (i 0).val < 16 := (i 0).isLt
  have hi1 : (i 1).val < 64 := (i 1).isLt
  have hi2 : (i 2).val < 256 := (i 2).isLt
  have hi3 : (i 3).val < 256 := (i 3).isLt
  obtain ⟨t, ht⟩ := block_onto ⟨(i 0).val, hi0⟩ ⟨(i 1).val / 8, by omega⟩
  have q0 : win0_3.index t (0 : Fin 4) = (i 0).val := congrFun ht 0
  have q1 : win0_3.index t (1 : Fin 4) = (i 1).val / 8 := congrFun ht 1
  have q2 : win0_3.index t (2 : Fin 4) = 0 := congrFun ht 2
  have q3 : win0_3.index t (3 : Fin 4) = 0 := congrFun ht 3
  refine ⟨t, flush0_3 t, ?_⟩
  rw [mem_block]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 8 ≤ (i 1).val ∧ (i 1).val < win0_3.index t (1 : Fin 4) * 8 + 8; omega
  | ⟨2, _⟩ => show win0_3.index t (2 : Fin 4) * 256 ≤ (i 2).val ∧ (i 2).val < win0_3.index t (2 : Fin 4) * 256 + 256; omega
  | ⟨3, _⟩ => show win0_3.index t (3 : Fin 4) * 256 ≤ (i 3).val ∧ (i 3).val < win0_3.index t (3 : Fin 4) * 256 + 256; omega

/-- THE RESULT ARRAY after the run is `whole`. -/
theorem final (c : Dev nD) : (dats m 0 c).arrAt 3 cfg0.N = whole m c :=
  (dats m 0 c).arrAt_eq_of_cover 3 (whole m c) (fun t _ => flushed_eq m c t) (covered)

/-- The run, read: the result array at `Cert.Binned.result` of the three arguments, the arguments unchanged. -/
theorem run : θ_run defs (onTc (τ := τ) (main (F := Ideal))) ⟨m, fun _ => 0, ρ⟩ fun r => ∀ c : Dev nD,
      r.2.mem ((c : Thread nD τ).loc main_v0)
        = Cert.Binned.result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Whole

end
-- ==== Proof.RefRun.lean ====
import proofs.«156623_j68530498175130_1_alg».proof.Proof.Gen.ReferenceIdeal
import Idealize.ShloMosaic.Lib.StableHlo.Run

/-!
# The reference, run

The reference computes, for x : f32[16,64,256,256] and two tables w, b : f32[64,20],
(w[ch, idx] * x + b[ch, idx]) * (1 / (1 + exp (-x))), where ch is the coordinate on axis 1 and
idx = clamp (fptosi (floor (x * 10)) + 10) 0 19 is the bin of the element. It does so in 67 host operations: the bin word,
a select that would add 20 to a negative bin, the channel number as an iota with a select that would add 64 to a negative
channel, the two joined as a pair on a new last axis, one point gather per table, and the arithmetic.

This module lists the operations and reads off what the result buffer holds when they have all run: the composed term
resTerm of the three arguments, built from a few named pieces.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 67 operations, in order (the clamp function's six operations stand in its call's place). -/
abbrev ops : List (HloOp τ sig (Elt F)) :=
  [ nullary main_cst (constant S_ .f32 0x41200000#32),
    unary main_cst main_v0 (broadcastInDim S16x64x256x256 ![] bcast_S_S16x64x256x256 : (⟨S_, .f32⟩ : BufTy).Contents (Elt F) → (⟨S16x64x256x256, .f32⟩ : BufTy).Contents (Elt F)),
    binary main_arg0 main_v0 main_v1 (mulf : (⟨S16x64x256x256, .f32⟩ : BufTy).Contents (Elt F) → (⟨S16x64x256x256, .f32⟩ : BufTy).Contents (Elt F) → (⟨S16x64x256x256, .f32⟩ : BufTy).Contents (Elt F)),
    unary main_v1 main_v2 (Host.floor : (⟨S16x64x256x256, .f32⟩ : BufTy).Contents (Elt F) → (⟨S16x64x256x256, .f32⟩ : BufTy).Contents (Elt F)),
    unary main_v2 main_v3 (fptosi 32 : (⟨S16x64x256x256, .f32⟩ : BufTy).Contents (Elt F) → (⟨S16x64x256x256, .i32⟩ : BufTy).Contents (Elt F)),
    nullary main_c (constantI S_ 32 10#32),
    unary main_c main_v4 (broadcastInDim S16x64x256x256 ![] bcast_S_S16x64x256x256 : (⟨S_, .i32⟩ : BufTy).Contents (Elt F) → (⟨S16x64x256x256, .i32⟩ : BufTy).Contents (Elt F)),
    binary main_v3 main_v4 main_v5 (addi : (⟨S16x64x256x256, .i32⟩ : BufTy).Contents (Elt F) → (⟨S16x64x256x256, .i32⟩ : BufTy).Contents (Elt F) → (⟨S16x64x256x256, .i32⟩ : BufTy).Contents (Elt F)),
    nullary main_c_0 (constantI S_ 32 0#32),
    nullary main_c_1 (constantI S_ 32 19#32),
    unary main_c_0 main_call0_v0 (id : (⟨S_, .i32⟩ : BufTy).Contents (Elt F) → (⟨S_, .i32⟩ : BufTy).Contents (Elt F)),
    unary main_call0_v0 main_call0_v1 (broadcastInDim S16x64x256x256 ![] bcast_S_S16x64x256x256 : (⟨S_, .i32⟩ : BufTy).Contents (Elt F) → (⟨S16x64x256x256, .i32⟩ : BufTy).Contents (Elt F)),
    binary main_call0_v1 main_v5 main_call0_v2 (maxsi : (⟨S16x64x256x256, .i32⟩ : BufTy).Contents (Elt F) → (⟨S16x64x256x256, .i32⟩ : BufTy).Contents (Elt F) → (⟨S16x64x256x256, .i32⟩ : BufTy).Contents (Elt F)),
    unary main_c_1 main_call0_v3 (id : (⟨S_, .i32⟩ : BufTy).Contents (Elt F) → (⟨S_, .i32⟩ : BufTy).Contents (Elt F)),
    unary main_call0_v3 main_call0_v4 (broadcastInDim S16x64x256x256 ![] bcast_S_S16x64x256x256 : (⟨S_, .i32⟩ : BufTy).Contents (Elt F) → (⟨S16x64x256x256, .i32⟩ : BufTy).Contents (Elt F)),
    binary main_call0_v4 main_call0_v2 main_v6 (minsi : (⟨S16x64x256x256, .i32⟩ : BufTy).Contents (Elt F) → (⟨S16x64x256x256, .i32⟩ : BufTy).Contents (Elt F) → (⟨S16x64x256x256, .i32⟩ : BufTy).Contents (Elt F)),
    nullary main_v7 (iotaInDim S64 32 0),
    unary main_v7 main_v8 (broadcastInDim S1x64x1x1 ![1] bcast_S64_S1x64x1x1_1 : (⟨S64, .i32⟩ : BufTy).Contents (Elt F) → (⟨S1x64x1x1, .i32⟩ : BufTy).Contents (Elt F)),
    nullary main_c_2 (constantI S_ 32 0#32),
    unary main_c_2 main_v9 (broadcastInDim S1x64x1x1 ![] bcast_S_S1x64x1x1 : (⟨S_, .i32⟩ : BufTy).Contents (Elt F) → (⟨S1x64x1x1, .i32⟩ : BufTy).Contents (Elt F)),
    binary main_v8 main_v9 main_v10 (cmpi .slt : (⟨S1x64x1x1, .i32⟩ : BufTy).Contents (Elt F) → (⟨S1x64x1x1, .i32⟩ : BufTy).Contents (Elt F) → (⟨S1x64x1x1, .i1⟩ : BufTy).Contents (Elt F)),
    nullary main_c_3 (constantI S_ 32 64#32),
    unary main_c_3 main_v11 (broadcastInDim S1x64x1x1 ![] bcast_S_S1x64x1x1 : (⟨S_, .i32⟩ : BufTy).Contents (Elt F) → (⟨S1x64x1x1, .i32⟩ : BufTy).Contents (Elt F)),
    binary main_v8 main_v11 main_v12 (addi : (⟨S1x64x1x1, .i32⟩ : BufTy).Contents (Elt F) → (⟨S1x64x1x1, .i32⟩ : BufTy).Contents (Elt F) → (⟨S1x64x1x1, .i32⟩ : BufTy).Contents (Elt F)),
    ternary main_v10 main_v12 main_v8 main_v13 (select : (⟨S1x64x1x1, .i1⟩ : BufTy).Contents (Elt F) → (⟨S1x64x1x1, .i32⟩ : BufTy).Contents (Elt F) → (⟨S1x64x1x1, .i32⟩ : BufTy).Contents (Elt F) → (⟨S1x64x1x1, .i32⟩ : BufTy).Contents (Elt F)),
    nullary main_c_4 (constantI S_ 32 0#32),
    unary main_c_4 main_v14 (broadcastInDim S16x64x256x256 ![] bcast_S_S16x64x256x256 : (⟨S_, .i32⟩ : BufTy).Contents (Elt F) → (⟨S16x64x256x256, .i32⟩ : BufTy).Contents (Elt F)),
    binary main_v6 main_v14 main_v15 (cmpi .slt : (⟨S16x64x256x256, .i32⟩ : BufTy).Contents (Elt F) → (⟨S16x64x256x256, .i32⟩ : BufTy).Contents (Elt F) → (⟨S16x64x256x256, .i1⟩ : BufTy).Contents (Elt F)),
    nullary main_c_5 (constantI S_ 32 20#32),
    unary main_c_5 main_v16 (broadcastInDim S16x64x256x256 ![] bcast_S_S16x64x256x256 : (⟨S_, .i32⟩ : BufTy).Contents (Elt F) → (⟨S16x64x256x256, .i32⟩ : BufTy).Contents (Elt F)),
    binary main_v6 main_v16 main_v17 (addi : (⟨S16x64x256x256, .i32⟩ : BufTy).Contents (Elt F) → (⟨S16x64x256x256, .i32⟩ : BufTy).Contents (Elt F) → (⟨S16x64x256x256, .i32⟩ : BufTy).Contents (Elt F)),
    ternary main_v15 main_v17 main_v6 main_v18 (select : (⟨S16x64x256x256, .i1⟩ : BufTy).Contents (Elt F) → (⟨S16x64x256x256, .i32⟩ : BufTy).Contents (Elt F) → (⟨S16x64x256x256, .i32⟩ : BufTy).Contents (Elt F) → (⟨S16x64x256x256, .i32⟩ : BufTy).Contents (Elt F)),
    unary main_v13 main_v19 (broadcastInDim S16x64x256x256 ![0, 1, 2, 3] bcast_S1x64x1x1_S16x64x256x256_0_1_2_3 : (⟨S1x64x1x1, .i32⟩ : BufTy).Contents (Elt F) → (⟨S16x64x256x256, .i32⟩ : BufTy).Contents (Elt F)),
    unary main_v19 main_v20 (broadcastInDim S16x64x256x256x1 ![0, 1, 2, 3] bcast_S16x64x256x256_S16x64x256x256x1_0_1_2_3 : (⟨S16x64x256x256, .i32⟩ : BufTy).Contents (Elt F) → (⟨S16x64x256x256x1, .i32⟩ : BufTy).Contents (Elt F)),
    unary main_v18 main_v21 (broadcastInDim S16x64x256x256x1 ![0, 1, 2, 3] bcast_S16x64x256x256_S16x64x256x256x1_0_1_2_3 : (⟨S16x64x256x256, .i32⟩ : BufTy).Contents (Elt F) → (⟨S16x64x256x256x1, .i32⟩ : BufTy).Contents (Elt F)),
    binary main_v20 main_v21 main_v22 ((fun a b => concatenate S16x64x256x256x2 4 [⟨S16x64x256x256x1, a⟩, ⟨S16x64x256x256x1, b⟩] concatenates_S16x64x256x256x1_S16x64x256x256x1_S16x64x256x256x2_d4) : (⟨S16x64x256x256x1, .i32⟩ : BufTy).Contents (Elt F) → (⟨S16x64x256x256x1, .i32⟩ : BufTy).Contents (Elt F) → (⟨S16x64x256x256x2, .i32⟩ : BufTy).Contents (Elt F)),
    binary main_arg1 main_v22 main_v23 ((fun x i => Host.gather gather_S64x20_S16x64x256x256x2_S16x64x256x256_n_01_n_n_01_4_11 x i) : (⟨S64x20, .f32⟩ : BufTy).Contents (Elt F) → (⟨S16x64x256x256x2, .i32⟩ : BufTy).Contents (Elt F) → (⟨S16x64x256x256, .f32⟩ : BufTy).Contents (Elt F)),
    nullary main_c_6 (constantI S_ 32 0#32),
    unary main_c_6 main_v24 (broadcastInDim S1x64x1x1 ![] bcast_S_S1x64x1x1 : (⟨S_, .i32⟩ : BufTy).Contents (Elt F) → (⟨S1x64x1x1, .i32⟩ : BufTy).Contents (Elt F)),
    binary main_v8 main_v24 main_v25 (cmpi .slt : (⟨S1x64x1x1, .i32⟩ : BufTy).Contents (Elt F) → (⟨S1x64x1x1, .i32⟩ : BufTy).Contents (Elt F) → (⟨S1x64x1x1, .i1⟩ : BufTy).Contents (Elt F)),
    nullary main_c_7 (constantI S_ 32 64#32),
    unary main_c_7 main_v26 (broadcastInDim S1x64x1x1 ![] bcast_S_S1x64x1x1 : (⟨S_, .i32⟩ : BufTy).Contents (Elt F) → (⟨S1x64x1x1, .i32⟩ : BufTy).Contents (Elt F)),
    binary main_v8 main_v26 main_v27 (addi : (⟨S1x64x1x1, .i32⟩ : BufTy).Contents (Elt F) → (⟨S1x64x1x1, .i32⟩ : BufTy).Contents (Elt F) → (⟨S1x64x1x1, .i32⟩ : BufTy).Contents (Elt F)),
    ternary main_v25 main_v27 main_v8 main_v28 (select : (⟨S1x64x1x1, .i1⟩ : BufTy).Contents (Elt F) → (⟨S1x64x1x1, .i32⟩ : BufTy).Contents (Elt F) → (⟨S1x64x1x1, .i32⟩ : BufTy).Contents (Elt F) → (⟨S1x64x1x1, .i32⟩ : BufTy).Contents (Elt F)),
    nullary main_c_8 (constantI S_ 32 0#32),
    unary main_c_8 main_v29 (broadcastInDim S16x64x256x256 ![] bcast_S_S16x64x256x256 : (⟨S_, .i32⟩ : BufTy).Contents (Elt F) → (⟨S16x64x256x256, .i32⟩ : BufTy).Contents (Elt F)),
    binary main_v6 main_v29 main_v30 (cmpi .slt : (⟨S16x64x256x256, .i32⟩ : BufTy).Contents (Elt F) → (⟨S16x64x256x256, .i32⟩ : BufTy).Contents (Elt F) → (⟨S16x64x256x256, .i1⟩ : BufTy).Contents (Elt F)),
    nullary main_c_9 (constantI S_ 32 20#32),
    unary main_c_9 main_v31 (broadcastInDim S16x64x256x256 ![] bcast_S_S16x64x256x256 : (⟨S_, .i32⟩ : BufTy).Contents (Elt F) → (⟨S16x64x256x256, .i32⟩ : BufTy).Contents (Elt F)),
    binary main_v6 main_v31 main_v32 (addi : (⟨S16x64x256x256, .i32⟩ : BufTy).Contents (Elt F) → (⟨S16x64x256x256, .i32⟩ : BufTy).Contents (Elt F) → (⟨S16x64x256x256, .i32⟩ : BufTy).Contents (Elt F)),
    ternary main_v30 main_v32 main_v6 main_v33 (select : (⟨S16x64x256x256, .i1⟩ : BufTy).Contents (Elt F) → (⟨S16x64x256x256, .i32⟩ : BufTy).Contents (Elt F) → (⟨S16x64x256x256, .i32⟩ : BufTy).Contents (Elt F) → (⟨S16x64x256x256, .i32⟩ : BufTy).Contents (Elt F)),
    unary main_v28 main_v34 (broadcastInDim S16x64x256x256 ![0, 1, 2, 3] bcast_S1x64x1x1_S16x64x256x256_0_1_2_3 : (⟨S1x64x1x1, .i32⟩ : BufTy).Contents (Elt F) → (⟨S16x64x256x256, .i32⟩ : BufTy).Contents (Elt F)),
    unary main_v34 main_v35 (broadcastInDim S16x64x256x256x1 ![0, 1, 2, 3] bcast_S16x64x256x256_S16x64x256x256x1_0_1_2_3 : (⟨S16x64x256x256, .i32⟩ : BufTy).Contents (Elt F) → (⟨S16x64x256x256x1, .i32⟩ : BufTy).Contents (Elt F)),
    unary main_v33 main_v36 (broadcastInDim S16x64x256x256x1 ![0, 1, 2, 3] bcast_S16x64x256x256_S16x64x256x256x1_0_1_2_3 : (⟨S16x64x256x256, .i32⟩ : BufTy).Contents (Elt F) → (⟨S16x64x256x256x1, .i32⟩ : BufTy).Contents (Elt F)),
    binary main_v35 main_v36 main_v37 ((fun a b => concatenate S16x64x256x256x2 4 [⟨S16x64x256x256x1, a⟩, ⟨S16x64x256x256x1, b⟩] concatenates_S16x64x256x256x1_S16x64x256x256x1_S16x64x256x256x2_d4) : (⟨S16x64x256x256x1, .i32⟩ : BufTy).Contents (Elt F) → (⟨S16x64x256x256x1, .i32⟩ : BufTy).Contents (Elt F) → (⟨S16x64x256x256x2, .i32⟩ : BufTy).Contents (Elt F)),
    binary main_arg2 main_v37 main_v38 ((fun x i => Host.gather gather_S64x20_S16x64x256x256x2_S16x64x256x256_n_01_n_n_01_4_11 x i) : (⟨S64x20, .f32⟩ : BufTy).Contents (Elt F) → (⟨S16x64x256x256x2, .i32⟩ : BufTy).Contents (Elt F) → (⟨S16x64x256x256, .f32⟩ : BufTy).Contents (Elt F)),
    binary main_v23 main_arg0 main_v39 (mulf : (⟨S16x64x256x256, .f32⟩ : BufTy).Contents (Elt F) → (⟨S16x64x256x256, .f32⟩ : BufTy).Contents (Elt F) → (⟨S16x64x256x256, .f32⟩ : BufTy).Contents (Elt F)),
    binary main_v39 main_v38 main_v40 (addf : (⟨S16x64x256x256, .f32⟩ : BufTy).Contents (Elt F) → (⟨S16x64x256x256, .f32⟩ : BufTy).Contents (Elt F) → (⟨S16x64x256x256, .f32⟩ : BufTy).Contents (Elt F)),
    unary main_arg0 main_v41 (Host.negf : (⟨S16x64x256x256, .f32⟩ : BufTy).Contents (Elt F) → (⟨S16x64x256x256, .f32⟩ : BufTy).Contents (Elt F)),
    unary main_v41 main_v42 (Host.exp : (⟨S16x64x256x256, .f32⟩ : BufTy).Contents (Elt F) → (⟨S16x64x256x256, .f32⟩ : BufTy).Contents (Elt F)),
    nullary main_cst_10 (constant S_ .f32 0x3F800000#32),
    unary main_cst_10 main_v43 (broadcastInDim S16x64x256x256 ![] bcast_S_S16x64x256x256 : (⟨S_, .f32⟩ : BufTy).Contents (Elt F) → (⟨S16x64x256x256, .f32⟩ : BufTy).Contents (Elt F)),
    binary main_v43 main_v42 main_v44 (addf : (⟨S16x64x256x256, .f32⟩ : BufTy).Contents (Elt F) → (⟨S16x64x256x256, .f32⟩ : BufTy).Contents (Elt F) → (⟨S16x64x256x256, .f32⟩ : BufTy).Contents (Elt F)),
    nullary main_cst_11 (constant S_ .f32 0x3F800000#32),
    unary main_cst_11 main_v45 (broadcastInDim S16x64x256x256 ![] bcast_S_S16x64x256x256 : (⟨S_, .f32⟩ : BufTy).Contents (Elt F) → (⟨S16x64x256x256, .f32⟩ : BufTy).Contents (Elt F)),
    binary main_v45 main_v44 main_v46 (Host.divf : (⟨S16x64x256x256, .f32⟩ : BufTy).Contents (Elt F) → (⟨S16x64x256x256, .f32⟩ : BufTy).Contents (Elt F) → (⟨S16x64x256x256, .f32⟩ : BufTy).Contents (Elt F)),
    binary main_v40 main_v46 main_v47 (mulf : (⟨S16x64x256x256, .f32⟩ : BufTy).Contents (Elt F) → (⟨S16x64x256x256, .f32⟩ : BufTy).Contents (Elt F) → (⟨S16x64x256x256, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., unary_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩

/-- The bin word of every element: x * 10, floored, converted to a signed word, plus 10, clamped below by 0 and
    above by 19. -/
def clipped (x : (⟨S16x64x256x256, .f32⟩ : BufTy).Contents (Elt F)) : (⟨S16x64x256x256, .i32⟩ : BufTy).Contents (Elt F) :=
  minsi (broadcastInDim S16x64x256x256 ![] bcast_S_S16x64x256x256 (id (constantI S_ 32 19#32))) (maxsi (broadcastInDim S16x64x256x256 ![] bcast_S_S16x64x256x256 (id (constantI S_ 32 0#32))) (addi (fptosi 32 (Host.floor (mulf x (broadcastInDim S16x64x256x256 ![] bcast_S_S16x64x256x256 (constant S_ .f32 0x41200000#32))))) (broadcastInDim S16x64x256x256 ![] bcast_S_S16x64x256x256 (constantI S_ 32 10#32))))

/-- The channel number along axis 1 (an iota), after the select that would add 64 to a negative one. -/
def chan : (⟨S1x64x1x1, .i32⟩ : BufTy).Contents (Elt F) :=
  select (cmpi .slt (broadcastInDim S1x64x1x1 ![1] bcast_S64_S1x64x1x1_1 (iotaInDim S64 32 0)) (broadcastInDim S1x64x1x1 ![] bcast_S_S1x64x1x1 (constantI S_ 32 0#32))) (addi (broadcastInDim S1x64x1x1 ![1] bcast_S64_S1x64x1x1_1 (iotaInDim S64 32 0)) (broadcastInDim S1x64x1x1 ![] bcast_S_S1x64x1x1 (constantI S_ 32 64#32))) (broadcastInDim S1x64x1x1 ![1] bcast_S64_S1x64x1x1_1 (iotaInDim S64 32 0))

/-- The first components of the pairs: the channel number of every element, on a new last axis of length 1. -/
def rows : (⟨S16x64x256x256x1, .i32⟩ : BufTy).Contents (Elt F) :=
  broadcastInDim S16x64x256x256x1 ![0, 1, 2, 3] bcast_S16x64x256x256_S16x64x256x256x1_0_1_2_3 (broadcastInDim S16x64x256x256 ![0, 1, 2, 3] bcast_S1x64x1x1_S16x64x256x256_0_1_2_3 (chan (F := F)))

/-- The second components of the pairs: the bin word of every element after the select that would add 20 to a negative
    one, on a new last axis of length 1. -/
def cols (x : (⟨S16x64x256x256, .f32⟩ : BufTy).Contents (Elt F)) : (⟨S16x64x256x256x1, .i32⟩ : BufTy).Contents (Elt F) :=
  broadcastInDim S16x64x256x256x1 ![0, 1, 2, 3] bcast_S16x64x256x256_S16x64x256x256x1_0_1_2_3 (select (cmpi .slt (clipped x) (broadcastInDim S16x64x256x256 ![] bcast_S_S16x64x256x256 (constantI S_ 32 0#32))) (addi (clipped x) (broadcastInDim S16x64x256x256 ![] bcast_S_S16x64x256x256 (constantI S_ 32 20#32))) (clipped x))

/-- The (channel, bin) pair of every element: the two components joined along the last axis. -/
def pairs (x : (⟨S16x64x256x256, .f32⟩ : BufTy).Contents (Elt F)) : (⟨S16x64x256x256x2, .i32⟩ : BufTy).Contents (Elt F) :=
  concatenate S16x64x256x256x2 4 [⟨S16x64x256x256x1, rows (F := F)⟩, ⟨S16x64x256x256x1, cols x⟩] concatenates_S16x64x256x256x1_S16x64x256x256x1_S16x64x256x256x2_d4

/-- The gate 1 / (1 + exp (-x)). -/
def gate (x : (⟨S16x64x256x256, .f32⟩ : BufTy).Contents (Elt F)) : (⟨S16x64x256x256, .f32⟩ : BufTy).Contents (Elt F) :=
  Host.divf (broadcastInDim S16x64x256x256 ![] bcast_S_S16x64x256x256 (constant S_ .f32 0x3F800000#32)) (addf (broadcastInDim S16x64x256x256 ![] bcast_S_S16x64x256x256 (constant S_ .f32 0x3F800000#32)) (Host.exp (Host.negf x)))

/-- What the result buffer holds: (w[pair] * x + b[pair]) * gate x. -/
def resTerm (x : (⟨S16x64x256x256, .f32⟩ : BufTy).Contents (Elt F)) (w b : (⟨S64x20, .f32⟩ : BufTy).Contents (Elt F)) : (⟨S16x64x256x256, .f32⟩ : BufTy).Contents (Elt F) :=
  mulf (addf (mulf (Host.gather gather_S64x20_S16x64x256x256x2_S16x64x256x256_n_01_n_n_01_4_11 w (pairs x)) x) (Host.gather gather_S64x20_S16x64x256x256x2_S16x64x256x256_n_01_n_n_01_4_11 b (pairs x))) (gate x)

/-- Joining two pieces of one shape along an axis respects equality of the pieces. -/
theorem concat_congr {α : Type} {t s : Shape} {d : Fin t.rank} {a a' b b' : s.Idx → α}
    (h : Shape.Concatenates [s, s] t d) (ha : a = a') (hb : b = b') :
    concatenate t d [⟨s, a⟩, ⟨s, b⟩] h = concatenate t d [⟨s, a'⟩, ⟨s, b'⟩] h := by
  subst ha; subst hb; rfl

set_option maxRecDepth 8192 in
set_option maxHeartbeats 26800000 in
/-- On every device, for any float values, from any memory with zero counters: every weakly fair execution of
    @main terminates with the result buffer at resTerm of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = resTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v47).trans (by
        after_results_simp
        unfold resTerm pairs
        refine congrArg₂ mulf (congrArg₂ addf (congrArg₂ mulf (congrArg (Host.gather _ _) (concat_congr _ ?_ ?_)) rfl) (congrArg (Host.gather _ _) (concat_congr _ ?_ ?_))) rfl
        all_goals (after_results_simp <;> rfl)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.HandRun

end
-- ==== Proof.LibGatherPairs.lean ====
/-
  A gather that reads ONE element of a matrix per result element.

  The operand is a matrix [N, M]; the start indices are an array [A, B, C, D, 2] whose last axis holds a (row, column)
  pair; the result is [A, B, C, D]. Both axes of the operand are collapsed and every slice has size 1, so result element
  y is the operand at the pair stored under y, each component read as a signed integer and clamped into its axis:
  the row into 0 … N − 1, the column into 0 … M − 1. This is what `t[rows, cols]` of a matrix `t` at two integer arrays of
  one shape lowers to. The second lemma reads the array of pairs itself when it was made by joining an array of rows
  and an array of columns, each [A, B, C, D, 1], along the last axis.
-/
import Idealize.ShloMosaic.Lib.ValueIdx
import Idealize.ShloMosaic.Lib.Pipeline.Value

noncomputable section

open Idealize.ShloMosaic Idealize.ShloMosaic.ValueIdx

namespace Cert.LibGatherPairs

variable {α : Type}

/-- The dimension numbers of that gather: no offset axes, both operand axes collapsed and both named by the start
    index map in order, the pair on axis 4 of the start indices, slices of one element. -/
abbrev pairDims (N M A B C D : Nat)
    (wf : GatherDims.WF ⟨2, ![N, M]⟩ ⟨5, ![A, B, C, D, 2]⟩ ⟨4, ![A, B, C, D]⟩ [] [0, 1] [] [0, 1] [] 4 ![1, 1]) :
    GatherDims ⟨2, ![N, M]⟩ ⟨5, ![A, B, C, D, 2]⟩ ⟨4, ![A, B, C, D]⟩ where
  offsetDims := []
  collapsedSliceDims := [0, 1]
  operandBatchingDims := []
  startIndicesBatchingDims := []
  startIndexMap := [0, 1]
  indexVectorDim := 4
  sliceSizes := ![1, 1]
  wf := wf

/-- Where result index `y` finds component `k` of its pair: at `[y₀, y₁, y₂, y₃, k]`. -/
abbrev pairIdx {A B C D : Nat} (y : (⟨4, ![A, B, C, D]⟩ : Shape).Idx) (k : Fin 2) : (⟨5, ![A, B, C, D, 2]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨(y 3).val, (y 3).isLt⟩
    | ⟨4, _⟩ => k

/-- THE GATHER READ AT `y`: the operand at the pair under `y`, the row read signed and clamped into `[0, N − 1]`, the
    column into `[0, M − 1]`. -/
theorem gather_pairs_apply {N M A B C D w : Nat} (hN : 0 < N) (hM : 0 < M)
    (wf : GatherDims.WF ⟨2, ![N, M]⟩ ⟨5, ![A, B, C, D, 2]⟩ ⟨4, ![A, B, C, D]⟩ [] [0, 1] [] [0, 1] [] 4 ![1, 1])
    (x : (⟨2, ![N, M]⟩ : Shape).Idx → α) (idx : IVec ⟨5, ![A, B, C, D, 2]⟩ w) (y : (⟨4, ![A, B, C, D]⟩ : Shape).Idx) :
    Host.gather (pairDims N M A B C D wf) x idx y
      = x (ix2 (⟨min (idx (pairIdx y 0)).toInt.toNat (N - 1), by omega⟩ : Fin N)
               (⟨min (idx (pairIdx y 1)).toInt.toNat (M - 1), by omega⟩ : Fin M)) := by
  unfold Host.gather
  congr 1
  funext a
  refine Fin.ext ?_
  match a with
  | ⟨0, _⟩ =>
    show (pairDims N M A B C D wf).start y idx (0 : Fin 2) + (pairDims N M A B C D wf).batchCoord y (0 : Fin 2)
        + (pairDims N M A B C D wf).offCoord y (0 : Fin 2) = _
    have hm : (0 : Fin 2) ∈ ([0, 1] : List (Fin 2)) := by decide
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos (show (0 : Fin 2) ∈ (pairDims N M A B C D wf).startIndexMap from hm)]
    have hsi : (pairDims N M A B C D wf).siIdx y ⟨List.idxOf (0 : Fin 2) (pairDims N M A B C D wf).startIndexMap,
        List.idxOf_lt_length_iff.2 hm⟩ = pairIdx y 0 := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    rfl
  | ⟨1, _⟩ =>
    show (pairDims N M A B C D wf).start y idx (1 : Fin 2) + (pairDims N M A B C D wf).batchCoord y (1 : Fin 2)
        + (pairDims N M A B C D wf).offCoord y (1 : Fin 2) = _
    have hm : (1 : Fin 2) ∈ ([0, 1] : List (Fin 2)) := by decide
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos (show (1 : Fin 2) ∈ (pairDims N M A B C D wf).startIndexMap from hm)]
    have hsi : (pairDims N M A B C D wf).siIdx y ⟨List.idxOf (1 : Fin 2) (pairDims N M A B C D wf).startIndexMap,
        List.idxOf_lt_length_iff.2 hm⟩ = pairIdx y 1 := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    rfl

/-- Where the pair under `y` finds a component in an array `[A, B, C, D, 1]` of rows, or of columns: at `[y₀, y₁, y₂, y₃, 0]`. -/
abbrev unitIdx {A B C D : Nat} (y : (⟨4, ![A, B, C, D]⟩ : Shape).Idx) : (⟨5, ![A, B, C, D, 1]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨(y 3).val, (y 3).isLt⟩
    | ⟨4, _⟩ => ⟨0, Nat.one_pos⟩

/-- An array of pairs made by joining rows and columns along the last axis holds the row under `y` first … -/
theorem joined_pair_row {A B C D : Nat} (r c : (⟨5, ![A, B, C, D, 1]⟩ : Shape).Idx → α)
    (h : Shape.Concatenates [(⟨5, ![A, B, C, D, 1]⟩ : Shape), ⟨5, ![A, B, C, D, 1]⟩] ⟨5, ![A, B, C, D, 2]⟩ 4)
    (y : (⟨4, ![A, B, C, D]⟩ : Shape).Idx) :
    concatenate (⟨5, ![A, B, C, D, 2]⟩ : Shape) 4 [⟨⟨5, ![A, B, C, D, 1]⟩, r⟩, ⟨⟨5, ![A, B, C, D, 1]⟩, c⟩] h (pairIdx y 0)
      = r (unitIdx y) := by
  refine concatenate_pair_apply_left _ r c h (pairIdx y 0) rfl (unitIdx y) fun b => ?_
  match b with
  | ⟨0, _⟩ => rfl
  | ⟨1, _⟩ => rfl
  | ⟨2, _⟩ => rfl
  | ⟨3, _⟩ => rfl
  | ⟨4, _⟩ => rfl

/-- … and the column under `y` second. -/
theorem joined_pair_col {A B C D : Nat} (r c : (⟨5, ![A, B, C, D, 1]⟩ : Shape).Idx → α)
    (h : Shape.Concatenates [(⟨5, ![A, B, C, D, 1]⟩ : Shape), ⟨5, ![A, B, C, D, 1]⟩] ⟨5, ![A, B, C, D, 2]⟩ 4)
    (y : (⟨4, ![A, B, C, D]⟩ : Shape).Idx) :
    concatenate (⟨5, ![A, B, C, D, 2]⟩ : Shape) 4 [⟨⟨5, ![A, B, C, D, 1]⟩, r⟩, ⟨⟨5, ![A, B, C, D, 1]⟩, c⟩] h (pairIdx y 1)
      = c (unitIdx y) := by
  refine concatenate_pair_apply_right _ r c h (pairIdx y 1) rfl rfl (unitIdx y) (fun b hb => ?_) rfl
  match b with
  | ⟨0, _⟩ => rfl
  | ⟨1, _⟩ => rfl
  | ⟨2, _⟩ => rfl
  | ⟨3, _⟩ => rfl
  | ⟨4, _⟩ => exact absurd rfl hb

end Cert.LibGatherPairs

end
-- ==== Proof.RefValue.lean ====
import proofs.«156623_j68530498175130_1_alg».proof.Proof.RefRun
import proofs.«156623_j68530498175130_1_alg».proof.Proof.Bins
import proofs.«156623_j68530498175130_1_alg».proof.Proof.LibGatherPairs
import Idealize.ShloMosaic.Lib.Pipeline.Value
import Idealize.ShloMosaic.Lib.ValueIdx

/-!
# The reference, element by element

Over the extended reals the term the reference leaves in its result buffer is the array of cells of Bins: element
(n, c, h, w) is (w[c, bin x] * x + b[c, bin x]) * logistic x at x = x[n, c, h, w].

* The bin word is the clamp of floor (10 x) + 10 into 0 ... 19, so it is not negative and the select that would add 20
  keeps it.
* The channel number is an iota below 64, so it is not negative either and the select that would add 64 keeps it.
* The gather clamps the pair into the table; the channel is below 64 and the bin below 20, so the clamps keep both.
* 1 / (1 + exp (-x)) is the logistic function as it is defined.
-/

noncomputable section

namespace Cert.ReferenceIdeal.HandValue

open Cert.ReferenceIdeal Cert.ReferenceIdeal.Gen Idealize.ShloMosaic Idealize.ShloMosaic.TcCoe Idealize.SL.Sem Idealize.ShloMosaic.StableHlo
open Idealize.ShloMosaic.ValueIdx Cert.LibGatherPairs

/-! ## Words below 64 -/

/-- A word below 64 is not negative in the signed order ... -/
theorem not_slt_zero_of_lt {v : BitVec 32} (h : v.toNat < 64) : IntOp.cmpi .slt v 0#32 = 0#1 := by
  have hc := BitVec.toInt_eq_toNat_cond v
  have : ¬ v.toInt < 0 := by split at hc <;> omega
  simp [IntOp.cmpi, BitVec.slt, this]

/-- ... and read as a signed integer it is the same natural number. -/
theorem toInt_toNat_of_lt {v : BitVec 32} (h : v.toNat < 64) : v.toInt.toNat = v.toNat := by
  have hc := BitVec.toInt_eq_toNat_cond v
  split at hc <;> omega

/-- A number below 64 as a word, read back. -/
theorem ofNat_toNat_of_lt {c : Nat} (h : c < 64) : (BitVec.ofNat 32 c).toNat = c := by
  rw [BitVec.toNat_ofNat]; omega

/-- A number below 64 as a word is below 64. -/
theorem ofNat_lt {c : Nat} (h : c < 64) : (BitVec.ofNat 32 c).toNat < 64 := by
  rw [ofNat_toNat_of_lt h]; exact h

/-! ## The pieces at an index -/

/-- The bin word at an index is the bin word of the element there. -/
theorem clipped_apply (x : (⟨S16x64x256x256, .f32⟩ : BufTy).Contents (Elt Ideal)) (i : S16x64x256x256.Idx) :
    HandRun.clipped (F := Ideal) x i = Cert.Binned.binWord (x i) := rfl

/-- The channel number at an index is its coordinate on axis 1: the iota is below 64, so the select keeps it. -/
theorem chan_apply (j : S1x64x1x1.Idx) : HandRun.chan (F := Ideal) j = BitVec.ofNat 32 (j 1).val := by
  have hi : broadcastInDim S1x64x1x1 ![1] bcast_S64_S1x64x1x1_1 (iotaInDim S64 32 0) j = BitVec.ofNat 32 (j 1).val :=
    broadcastInDim_apply _ bcast_S64_S1x64x1x1_1 (iotaInDim S64 32 0) j (fun a => match a with | ⟨0, _⟩ => ⟨(j 1).val, (j 1).isLt⟩)
      (fun a => match a with
        | ⟨0, _⟩ => by show (j 1).val = if (64 : Nat) = 1 then 0 else (j 1).val; rw [if_neg (by decide)])
  have h64 : (j 1).val < 64 := (j 1).isLt
  show Scalar.select (IntOp.cmpi .slt (broadcastInDim S1x64x1x1 ![1] bcast_S64_S1x64x1x1_1 (iotaInDim S64 32 0) j) 0#32)
      (IntOp.addi (broadcastInDim S1x64x1x1 ![1] bcast_S64_S1x64x1x1_1 (iotaInDim S64 32 0) j) 64#32)
      (broadcastInDim S1x64x1x1 ![1] bcast_S64_S1x64x1x1_1 (iotaInDim S64 32 0) j) = _
  rw [hi, not_slt_zero_of_lt (ofNat_lt h64), select_zero]

/-- The first component of the pair under y is the channel of y. -/
theorem rows_apply (y : S16x64x256x256.Idx) :
    HandRun.rows (F := Ideal) (unitIdx y) = BitVec.ofNat 32 (y 1).val := by
  unfold HandRun.rows
  rw [broadcastInDim_apply _ bcast_S16x64x256x256_S16x64x256x256x1_0_1_2_3 _ (unitIdx y) y (fun a => match a with
    | ⟨0, _⟩ => by show (y 0).val = if (16 : Nat) = 1 then 0 else (y 0).val; rw [if_neg (by decide)]
    | ⟨1, _⟩ => by show (y 1).val = if (64 : Nat) = 1 then 0 else (y 1).val; rw [if_neg (by decide)]
    | ⟨2, _⟩ => by show (y 2).val = if (256 : Nat) = 1 then 0 else (y 2).val; rw [if_neg (by decide)]
    | ⟨3, _⟩ => by show (y 3).val = if (256 : Nat) = 1 then 0 else (y 3).val; rw [if_neg (by decide)])]
  rw [broadcastInDim_apply _ bcast_S1x64x1x1_S16x64x256x256_0_1_2_3 _ y (fun a => match a with
      | ⟨0, _⟩ => ⟨0, Nat.one_pos⟩
      | ⟨1, _⟩ => ⟨(y 1).val, (y 1).isLt⟩
      | ⟨2, _⟩ => ⟨0, Nat.one_pos⟩
      | ⟨3, _⟩ => ⟨0, Nat.one_pos⟩) (fun a => match a with
    | ⟨0, _⟩ => by show 0 = if (1 : Nat) = 1 then 0 else (y 0).val; rw [if_pos rfl]
    | ⟨1, _⟩ => by show (y 1).val = if (64 : Nat) = 1 then 0 else (y 1).val; rw [if_neg (by decide)]
    | ⟨2, _⟩ => by show 0 = if (1 : Nat) = 1 then 0 else (y 2).val; rw [if_pos rfl]
    | ⟨3, _⟩ => by show 0 = if (1 : Nat) = 1 then 0 else (y 3).val; rw [if_pos rfl])]
  exact chan_apply _

/-- The second component of the pair under y is the bin word of the element at y: the word is among 0 ... 19, so the
    select keeps it. -/
theorem cols_apply (x : (⟨S16x64x256x256, .f32⟩ : BufTy).Contents (Elt Ideal)) (y : S16x64x256x256.Idx) :
    HandRun.cols (F := Ideal) x (unitIdx y) = Cert.Binned.binWord (x y) := by
  unfold HandRun.cols
  rw [broadcastInDim_apply _ bcast_S16x64x256x256_S16x64x256x256x1_0_1_2_3 _ (unitIdx y) y (fun a => match a with
    | ⟨0, _⟩ => by show (y 0).val = if (16 : Nat) = 1 then 0 else (y 0).val; rw [if_neg (by decide)]
    | ⟨1, _⟩ => by show (y 1).val = if (64 : Nat) = 1 then 0 else (y 1).val; rw [if_neg (by decide)]
    | ⟨2, _⟩ => by show (y 2).val = if (256 : Nat) = 1 then 0 else (y 2).val; rw [if_neg (by decide)]
    | ⟨3, _⟩ => by show (y 3).val = if (256 : Nat) = 1 then 0 else (y 3).val; rw [if_neg (by decide)])]
  show Scalar.select (IntOp.cmpi .slt (HandRun.clipped (F := Ideal) x y) 0#32)
      (IntOp.addi (HandRun.clipped (F := Ideal) x y) 20#32) (HandRun.clipped (F := Ideal) x y) = _
  rw [clipped_apply, Cert.Binned.not_slt_zero (Cert.Binned.binWord_lt _), select_zero]

/-- The f32 word 0x3F800000 is the number 1. -/
theorem one_bits : Ideal.ofBits .f32 0x3F800000#32 = 1 := by simp [Ideal.ofBits, Ideal.ieee, -EReal.coe_mul]; norm_num

/-- The gate at an index is the logistic function of the element there: 1 / (1 + exp (-x)) is how that function is
    defined. -/
theorem gate_apply (x : (⟨S16x64x256x256, .f32⟩ : BufTy).Contents (Elt Ideal)) (i : S16x64x256x256.Idx) :
    HandRun.gate (F := Ideal) x i = (FloatOps.logistic (x i : Ideal .f32) : Ideal .f32) := by
  show Ideal.div (Ideal.ofBits .f32 0x3F800000#32) (Ideal.ofBits .f32 0x3F800000#32 + Ideal.exp (-(x i))) = Ideal.logistic (x i)
  rw [one_bits]; rfl

/-! ## The gathers -/

/-- A table gathered at the pairs reads, under y, row (channel of y), column (bin of the element at y): both components
    are in range, so the clamps of the gather keep them. -/
theorem gather_read (t : (⟨S64x20, .f32⟩ : BufTy).Contents (Elt Ideal)) (x : (⟨S16x64x256x256, .f32⟩ : BufTy).Contents (Elt Ideal)) (y : S16x64x256x256.Idx) :
    Host.gather gather_S64x20_S16x64x256x256x2_S16x64x256x256_n_01_n_n_01_4_11 t (HandRun.pairs (F := Ideal) x) y
      = t (ix2 (⟨(y 1).val, (y 1).isLt⟩ : Fin 64) (Cert.Binned.bin (x y))) := by
  have hr : HandRun.pairs (F := Ideal) x (pairIdx y 0) = BitVec.ofNat 32 (y 1).val := by
    unfold HandRun.pairs; rw [joined_pair_row]; exact rows_apply y
  have hc : HandRun.pairs (F := Ideal) x (pairIdx y 1) = Cert.Binned.binWord (x y) := by
    unfold HandRun.pairs; rw [joined_pair_col]; exact cols_apply x y
  have h64 : (y 1).val < 64 := (y 1).isLt
  have h20 := Cert.Binned.binWord_lt (x y)
  have e0 : min (HandRun.pairs (F := Ideal) x (pairIdx y 0)).toInt.toNat (64 - 1) = (y 1).val := by
    rw [hr, toInt_toNat_of_lt (ofNat_lt h64), ofNat_toNat_of_lt h64]; omega
  have e1 : min (HandRun.pairs (F := Ideal) x (pairIdx y 1)).toInt.toNat (20 - 1) = (Cert.Binned.binWord (x y)).toNat := by
    rw [hc, Cert.Binned.toInt_toNat h20]; omega
  show Host.gather (pairDims 64 20 16 64 256 256 gather_S64x20_S16x64x256x256x2_S16x64x256x256_n_01_n_n_01_4_11_wf) t (HandRun.pairs (F := Ideal) x) y = _
  rw [gather_pairs_apply (N := 64) (M := 20) (by decide) (by decide)]
  exact congrArg t (congrArg₂ ix2 (Fin.ext e0) (Fin.ext e1))

/-! ## The whole term -/

/-- The reference's result is the array of cells. -/
theorem resTerm_eq (x : (⟨S16x64x256x256, .f32⟩ : BufTy).Contents (Elt Ideal)) (w b : (⟨S64x20, .f32⟩ : BufTy).Contents (Elt Ideal)) :
    HandRun.resTerm (F := Ideal) x w b = Cert.Binned.result x w b := by
  funext i
  show (FloatOps.mulf (FloatOps.addf (FloatOps.mulf (Host.gather gather_S64x20_S16x64x256x256x2_S16x64x256x256_n_01_n_n_01_4_11 w (HandRun.pairs (F := Ideal) x) i : Ideal .f32) (x i))
      (Host.gather gather_S64x20_S16x64x256x256x2_S16x64x256x256_n_01_n_n_01_4_11 b (HandRun.pairs (F := Ideal) x) i)) (HandRun.gate (F := Ideal) x i) : Ideal .f32) = _
  rw [gather_read, gather_read, gate_apply]
  rfl

set_option maxRecDepth 8192 in
/-- On every device, from any memory with zero counters: every weakly fair execution of @main terminates with the result
    buffer at the array of cells of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47) = Cert.Binned.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (resTerm_eq _ _ _), (h c).2⟩) (HandRun.run (F := Ideal) m ρ)

end Cert.ReferenceIdeal.HandValue

end
-- ==== Proof.lean ====
/-
  The binned activation: for x : [16, 64, 256, 256] and two tables w, b : [64, 20], every element x[n, c, h, w] is
  sent to its bin ⌊10·x⌋ + 10 clamped into 0 … 19, and the result element is (w[c, bin] · x + b[c, bin]) · σ(x) with σ the
  logistic function (`Cert.Binned.result`).

  The kernel reads the two tables by twenty compare-and-select steps per element, block by block over a grid of
  (image, channel group) points; the reference reads them by one gather at the index pair (channel, bin). Over the
  extended reals both end with the result array at the same function of the three arguments: the clamp keeps the bin
  in range, so exactly one select step fires and the gather's own clamping and negative-index fix-up change nothing, and
  the kernel's logistic is by definition the reference's 1 / (1 + e⁻ˣ). No rule of the idealization was applied, so the
  idealized kernel is the kernel's own text read over the extended reals. The inputs' finiteness is not used.
-/
import proofs.«156623_j68530498175130_1_alg».proof.Defs
import proofs.«156623_j68530498175130_1_alg».proof.Proof.Gen.Kernel
import proofs.«156623_j68530498175130_1_alg».proof.Proof.Gen.Kernel.Skeleton
import proofs.«156623_j68530498175130_1_alg».proof.Proof.Gen.Kernel.Launch
import proofs.«156623_j68530498175130_1_alg».proof.Proof.Gen.Kernel.Points
import proofs.«156623_j68530498175130_1_alg».proof.Proof.Gen.Kernel.Frame
import proofs.«156623_j68530498175130_1_alg».proof.Proof.Gen.KernelIdeal
import proofs.«156623_j68530498175130_1_alg».proof.Proof.Gen.KernelIdeal.Skeleton
import proofs.«156623_j68530498175130_1_alg».proof.Proof.Gen.KernelIdeal.Launch
import proofs.«156623_j68530498175130_1_alg».proof.Proof.Gen.KernelIdeal.Points
import proofs.«156623_j68530498175130_1_alg».proof.Proof.Gen.KernelIdeal.Frame
import proofs.«156623_j68530498175130_1_alg».proof.Proof.Gen.ReferenceIdeal
import proofs.«156623_j68530498175130_1_alg».proof.Proof.Gen.Pre_finite_inputs
import proofs.«156623_j68530498175130_1_alg».proof.Proof.KernelValue
import proofs.«156623_j68530498175130_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel [Cert.Kernel.Facts] [Cert.Pre_finite_inputs.Facts] : Cert.frame_Kernel :=
  fun m ρ _ => Cert.Kernel.Gen.frame m ρ

/-- So does the idealized kernel. -/
theorem frame_kernel_ideal [Cert.KernelIdeal.Facts] [Cert.Pre_finite_inputs.Facts] : Cert.frame_KernelIdeal :=
  fun m ρ _ => Cert.KernelIdeal.Gen.frame m ρ

/-- The reference runs and leaves its arguments unchanged: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.HandValue.run m ρ)

/-- From memories that agree on the arguments both programs end with the result array at `Cert.Binned.result` of the
    arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Binned.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.HandValue.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
